-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  main_v3
-- ==== Kernel.lean ====
abbrev S32x2048x128 : Shape := ⟨3, ![32, 2048, 128]⟩
abbrev S32x1x128 : Shape := ⟨3, ![32, 1, 128]⟩
abbrev S1x2048x128 : Shape := ⟨3, ![1, 2048, 128]⟩
abbrev S1x1x128 : Shape := ⟨3, ![1, 1, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S32x2048x128, .f32⟩
  | .hbm, ⟨1, _⟩ => ⟨S32x1x128, .f32⟩
  | .hbm, ⟨2, _⟩ => ⟨S32x1x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x1x128, .f32⟩
  | .local _ .vmem, ⟨3, _⟩ => ⟨S1x1x128, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  reduces_S2048x128_S128 : S2048x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S32x1x128_S_d0_1_2 : S32x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)

variable [Facts₀]

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S_ : Shape := ⟨0, ![]⟩
abbrev S32x2048 : Shape := ⟨2, ![32, 2048]⟩
abbrev S32x2048x1 : Shape := ⟨3, ![32, 2048, 1]⟩
abbrev S32x2048x2048 : Shape := ⟨3, ![32, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S_, .f32⟩
  | .hbm, ⟨3, _⟩ => ⟨S32x2048, .f32⟩
  | .hbm, ⟨4, _⟩ => ⟨S32x2048x1, .f32⟩
  | .hbm, ⟨5, _⟩ => ⟨S32x2048x1, .f32⟩
  | .hbm, ⟨6, _⟩ => ⟨S_, .f32⟩
  | .hbm, ⟨7, _⟩ => ⟨S32x2048x1, .f32⟩
  | .hbm, ⟨8, _⟩ => ⟨S32x2048x1, .f32⟩
  | .hbm, ⟨9, _⟩ => ⟨S32x2048x128, .f32⟩
  | .hbm, ⟨10, _⟩ => ⟨S32x2048x128, .f32⟩
  | .hbm, ⟨11, _⟩ => ⟨S32x2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  reducesTo_S32x2048x128_S32x2048_d2 : S32x2048x128.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x128_0_1_2 : S32x2048x1.BroadcastsInDim S32x2048x128 (![0, 1, 2] : Fin 3 → Fin S32x2048x128.rank)
  reducesTo_S32x2048x2048_S_d0_1_2 : S32x2048x2048.ReducesTo [0, 1, 2] S_
  dot_S32x2048x128_S32x2048x128_S32x2048x2048_2_2_1_1_0_0_wf : DotDims.WF S32x2048x128 S32x2048x128 S32x2048x2048 [2] [2] [1] [1] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf

class Facts : Prop extends Facts₀ where

variable [Facts]
-- ==== Proof.Consts.lean ====
/-
  The float constants the two programs spell, as the extended reals their bit patterns denote.
  The clamp applied to a row's norm is the f32 word 0x322BCC77 (the float nearest 1e-8): a normal number with
  exponent field 100 and fraction 2870391, that is (2^23 + 2870391) · 2^(100 - 127 - 23) = 11258999 · 2^(-50),
  a positive real. The precondition compares |x| with the word 0x7F800000, which denotes +∞.
-/
import Idealize.ShloMosaic.PureOps.Ideal

noncomputable section

namespace Cert.Consts

open Idealize.ShloMosaic

/-- The clamp's value as a real number. -/
def epsR : ℝ := 11258999 * (2 : ℝ) ^ (-50 : ℤ)

theorem epsR_pos : 0 < epsR := by
  unfold epsR; positivity

/-- The clamp's word denotes that real. -/
theorem ofBits_eps : Ideal.ofBits .f32 0x322BCC77#32 = ((epsR : ℝ) : EReal) := by
  unfold epsR
  simp [Ideal.ofBits, Ideal.ieee, -EReal.coe_mul]

/-- The all-ones exponent with a zero fraction and a clear sign denotes +∞. -/
theorem ofBits_inf : Ideal.ofBits .f32 0x7F800000#32 = ⊤ := by
  simp [Ideal.ofBits, Ideal.ieee]

end Cert.Consts

end
-- ==== Proof.Finite.lean ====
/-
  What the precondition says of the input: every entry is a real number.
  The precondition is the conjunction, over every index, of |x[i]| < +∞. An extended real whose absolute value
  max(x, -x) is below +∞ is neither +∞ (its absolute value is +∞) nor -∞ (its absolute value is +∞ again), so it
  is a real number.
-/
import proofs.«125708_j6055903887416_1_alg».proof.Pre_finite_inputs
import proofs.«125708_j6055903887416_1_alg».proof.Proof.Consts
import Idealize.ShloMosaic.Lib.ReduceAll
import Idealize.ShloMosaic.Lib.ValueIdx
import Idealize.ShloMosaic.PureOps.Ideal.Laws

noncomputable section

namespace Cert.Ortho

open Idealize.ShloMosaic

instance : Subsingleton Cert.Pre_finite_inputs.S_.Idx := ⟨fun _ _ => funext fun d => d.elim0⟩

/-- An extended real whose absolute value compares below +∞ is a real number. -/
theorem real_of_abs_lt_top (y : EReal) (h : Ideal.cmp .olt (max y (-y)) ⊤ = 1#1) : ∃ r : ℝ, y = r := by
  induction y using EReal.rec
  · simp [Ideal.cmp] at h
  · exact ⟨_, rfl⟩
  · simp [Ideal.cmp] at h

/-- Under the precondition every entry of the input is a real number. -/
theorem real_of_finite [Cert.Pre_finite_inputs.Facts] (x : FVec Ideal Cert.Pre_finite_inputs.S32x2048x128 .f32)
    (h : Cert.Pre_finite_inputs.fn (F := Ideal) x = fun _ => 1#1) (i : Cert.Pre_finite_inputs.S32x2048x128.Idx) :
    ∃ r : ℝ, x i = r := by
  have h0 := congrFun h ValueIdx.ix0
  dsimp only [Cert.Pre_finite_inputs.fn] at h0
  have h1 := Host.reduce_andi_all _ _ _ _ _ h0 i
  have h2 : Ideal.cmp .olt (max (x i) (-(x i))) (Ideal.ofBits .f32 0x7F800000#32) = 1#1 := h1
  rw [Cert.Consts.ofBits_inf] at h2
  exact real_of_abs_lt_top (x i) h2

end Cert.Ortho

end
-- ==== Proof.Spec.lean ====
/-
  The specification both programs meet, and the law that joins them.

  For an array x over [32, 2048, 128] (batch b, row s, feature d):
    rowNorm x b s  = max (sqrt (sum_d x[b,s,d]^2)) eps          -- a row's Euclidean norm, clamped below by eps
    unitRow x b s d = x[b,s,d] / rowNorm x b s                   -- the row scaled to unit length
    colSum x b d   = sum_s unitRow x b s d                       -- what one grid point of the kernel writes
  The kernel squares the column sums and adds them up (colTotal); the reference forms every pairwise inner
  product of unit rows within a batch and adds those up (gramTotal). Both then divide by the same constant.

  The two totals are equal because, in each batch,
    sum_{s,t} sum_d u[s,d] u[t,d] = sum_d (sum_s u[s,d]) (sum_t u[t,d]),
  which is distributivity of a product over two sums followed by exchanging the order of summation. On the
  extended reals distributivity fails at the infinities, so the law is proved on real numbers: when every x[b,s,d]
  is real, the sum of squares is a nonnegative real, its square root is real, the clamp makes the divisor a
  POSITIVE real (eps > 0), and so every unit-row entry is a real number.
-/
import Idealize.ShloMosaic.PureOps.Ideal
import Idealize.ShloMosaic.PureOps.Ideal.Laws
import Idealize.ShloMosaic.Lib.ValueIdx
import proofs.«125708_j6055903887416_1_alg».proof.Proof.Consts

noncomputable section

namespace Cert.Ortho

open Idealize.ShloMosaic Idealize.ShloMosaic.ValueIdx

abbrev SX : Shape := ⟨3, ![32, 2048, 128]⟩

/-- The clamp under a row's norm, as both programs spell it. -/
def eps : EReal := Ideal.ofBits .f32 0x322BCC77#32

/-- Row (b, s)'s Euclidean norm, clamped below by eps. -/
def rowNorm (x : SX.Idx → EReal) (b : Fin 32) (s : Fin 2048) : EReal :=
  max (Ideal.sqrt (∑ k : Fin 128, x (ix3 b s k) * x (ix3 b s k))) eps

/-- Row (b, s) scaled to unit length, at feature d. -/
def unitRow (x : SX.Idx → EReal) (b : Fin 32) (s : Fin 2048) (d : Fin 128) : EReal :=
  Ideal.div (x (ix3 b s d)) (rowNorm x b s)

/-- The sum of batch b's unit rows, at feature d. -/
def colSum (x : SX.Idx → EReal) (b : Fin 32) (d : Fin 128) : EReal := ∑ s : Fin 2048, unitRow x b s d

/-- The kernel's total: the squared column sums, added over batches and features. -/
def colTotal (x : SX.Idx → EReal) : EReal := ∑ b : Fin 32, ∑ d : Fin 128, colSum x b d * colSum x b d

/-- The reference's total: every inner product of two unit rows of one batch, added up. -/
def gramTotal (x : SX.Idx → EReal) : EReal :=
  ∑ b : Fin 32, ∑ s : Fin 2048, ∑ t : Fin 2048, ∑ k : Fin 128, unitRow x b s k * unitRow x b t k

/-! ## Sums of real numbers inside the extended reals -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law on real numbers: the squared column sums of a matrix add up to the sum of all pairwise inner products
    of its rows. -/
theorem gram_sum_real {ι κ : Type*} [Fintype ι] [Fintype κ] (u : ι → κ → ℝ) :
    ∑ d, (∑ s, u s d) * (∑ t, u t d) = ∑ s, ∑ t, ∑ d, u s d * u t d := by
  simp_rw [Finset.sum_mul_sum]
  rw [Finset.sum_comm]
  exact Finset.sum_congr rfl fun s _ => Finset.sum_comm

/-! ## Real inputs give real unit rows -/

/-- Of real entries a row's clamped norm is a positive real. -/
theorem rowNorm_real (x : SX.Idx → EReal) (r : SX.Idx → ℝ) (hr : ∀ i, x i = r i) (b : Fin 32) (s : Fin 2048) :
    ∃ n : ℝ, 0 < n ∧ rowNorm x b s = n := by
  unfold rowNorm eps
  simp only [hr, ← EReal.coe_mul, coe_sum]
  rw [Ideal.sqrt_coe, if_neg (not_lt.2 (Finset.sum_nonneg fun k _ => mul_self_nonneg _)), Cert.Consts.ofBits_eps]
  exact ⟨max (Real.sqrt _) Cert.Consts.epsR, lt_max_of_lt_right Cert.Consts.epsR_pos,
    (EReal.coe_strictMono.monotone.map_max).symm⟩

/-- So every unit-row entry is a real number. -/
theorem unitRow_real (x : SX.Idx → EReal) (r : SX.Idx → ℝ) (hr : ∀ i, x i = r i) (b : Fin 32) (s : Fin 2048)
    (d : Fin 128) : ∃ u : ℝ, unitRow x b s d = u := by
  obtain ⟨n, hn, e⟩ := rowNorm_real x r hr b s
  refine ⟨r (ix3 b s d) * (1 / n), ?_⟩
  unfold unitRow
  rw [e, Ideal.div_coe hn.ne', hr, ← EReal.coe_mul]

/-! ## The law -/

/-- Of real entries, the kernel's total and the reference's total are one extended real. -/
theorem total_eq (x : SX.Idx → EReal) (hx : ∀ i, ∃ r : ℝ, x i = r) : colTotal x = gramTotal x := by
  choose r hr using hx
  choose u hu using fun b s d => unitRow_real x r hr b s d
  unfold colTotal gramTotal colSum
  simp only [hu, coe_sum, ← EReal.coe_mul]
  congr 1
  refine Finset.sum_congr rfl fun b _ => ?_
  exact gram_sum_real (fun s d => u b s d)

end Cert.Ortho

end
-- ==== Proof.LibSumIdx3.lean ====
/-
  A rank-3 index set is the product of its three coordinate ranges, so a sum over it is the triple sum over the
  coordinates. (The rank-2 form is the library's `ValueIdx.sum_idx2`; this is the same statement one rank up, for
  any extents and any commutative additive monoid.)
-/
import Idealize.ShloMosaic.Lib.ValueIdx

namespace Idealize.ShloMosaic.ValueIdx

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over every rank-3 index is the iterated sum over the three coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx
-- ==== Proof.RefValue.lean ====
/-
  The reference's result is the specification's: read one operation at a time, at explicit coordinates.
  Row (b, s)'s sum of squares is the host's sum over the last axis from a zero initial value; its square root,
  clamped by eps and broadcast along the row, divides the row: that is `unitRow`. The batched product contracts
  the feature axis of two copies of the unit rows: entry (b, s, t) is the inner product of unit rows s and t of
  batch b. The final sum runs over every (b, s, t), from a zero initial value, and is divided by the constant.
-/
import proofs.«125708_j6055903887416_1_alg».proof.Proof.Gen.ReferenceIdeal.Read
import proofs.«125708_j6055903887416_1_alg».proof.Proof.Spec
import proofs.«125708_j6055903887416_1_alg».proof.Proof.LibSumIdx3

noncomputable section

namespace Cert.ReferenceIdeal.RefValue

open Cert.ReferenceIdeal Cert.ReferenceIdeal.Gen Cert.ReferenceIdeal.Read Idealize.ShloMosaic
open Idealize.ShloMosaic.ValueIdx Cert.Ortho

/-- Row (b, s)'s sum of squares. -/
theorem sumsq_apply (x : FVec Ideal S32x2048x128 .f32) (b : Fin 32) (s : Fin 2048) :
    val_main_call0_v1 (F := Ideal) x (ix2 b s) = ∑ k : Fin 128, x (ix3 b s k) * x (ix3 b s k) := by
  rw [val_main_call0_v1_apply]
  simp only [val_main_call0_cst_apply, val_main_call0_v0_apply, Ideal.ofBits_def, Ideal.mulf_def,
    Ideal.ofBits_zero_f32, zero_add]
  refine Finset.sum_congr rfl fun k _ => ?_
  have e : idx_main_call0_v1 (ix2 b s) k = ix3 b s k :=
    funext fun a => Fin.ext (by match a with | ⟨0, _⟩ => rfl | ⟨1, _⟩ => rfl | ⟨2, _⟩ => rfl)
  rw [e]

/-- The divided input at (b, s, d) is the unit row's entry. -/
theorem unit_apply (x : FVec Ideal S32x2048x128 .f32) (b : Fin 32) (s : Fin 2048) (d : Fin 128) :
    val_main_v4 (F := Ideal) x (ix3 b s d) = unitRow x b s d := by
  rw [val_main_v4_apply, val_main_v3_apply, val_main_v2_apply, val_main_v0_apply, val_main_v1_apply,
    val_main_cst_apply, val_main_call0_v2_apply]
  have e1 : idx_main_call0_v2 (idx_main_v3 (ix3 b s d)) = ix2 b s :=
    funext fun a => Fin.ext (by match a with | ⟨0, _⟩ => rfl | ⟨1, _⟩ => rfl)
  rw [e1, sumsq_apply]
  simp only [Ideal.hostDivf_def, Ideal.hostUnary_sqrt_def, Ideal.maximumf_def, Ideal.ofBits_def]
  rfl

/-- The batched product at (b, s, t) is the inner product of unit rows s and t of batch b. -/
theorem gram_apply (x : FVec Ideal S32x2048x128 .f32) (b : Fin 32) (s t : Fin 2048) :
    val_main_v5 (F := Ideal) x (ix3 b s t) = ∑ k : Fin 128, unitRow x b s k * unitRow x b t k := by
  rw [val_main_v5_apply]
  refine Finset.sum_congr rfl fun k _ => ?_
  have el : lidx_main_v5 (ix3 b s t) k = ix3 b s k :=
    funext fun a => Fin.ext (by match a with | ⟨0, _⟩ => rfl | ⟨1, _⟩ => rfl | ⟨2, _⟩ => rfl)
  have er : ridx_main_v5 (ix3 b s t) k = ix3 b t k :=
    funext fun a => Fin.ext (by match a with | ⟨0, _⟩ => rfl | ⟨1, _⟩ => rfl | ⟨2, _⟩ => rfl)
  rw [el, er, unit_apply, unit_apply]

/-- The reference's result: the sum of all those inner products, from zero, over the constant. -/
theorem result_eq (x : FVec Ideal S32x2048x128 .f32) :
    val_main_v7 (F := Ideal) x
      = fun _ => Ideal.div (Ideal.ofBits .f32 0x00000000#32 + gramTotal x) (Ideal.ofBits .f32 0x4D000000#32) := by
  funext i
  rw [val_main_v7_apply, val_main_v6_apply, val_main_cst_1_apply, val_main_cst_0_apply, sum_idx3]
  simp only [gram_apply, Ideal.hostDivf_def, Ideal.ofBits_def]
  rfl

end Cert.ReferenceIdeal.RefValue

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What one grid point of the kernel stores, read at an index.
  The body loads a [1, 2048, 128] block (one batch), drops the unit axis, and for each of the 2048 rows takes the
  sum of squares over the 128 lanes, its square root, and the maximum with eps; the row is divided by that number;
  the 2048 scaled rows are then added up, lane by lane, and the 128 sums are stored as a [1, 1, 128] block.
  So the stored block at lane d is the sum over the rows s of  block[0, s, d] / max (sqrt (sum_k block[0, s, k]^2)) eps:
  the specification's column sum, of the block in place of the batch.
-/
import proofs.«125708_j6055903887416_1_alg».proof.Proof.Gen.KernelIdeal.Skeleton
import proofs.«125708_j6055903887416_1_alg».proof.Proof.Spec
import proofs.«125708_j6055903887416_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Ortho

/-- A sum over the lanes of a [2048, 128] value, at row s. -/
theorem laneSum_apply (v : FVec Ideal S2048x128 .f32) (h : S2048x128.Reduces [1] S2048) (hφ : FKind.Formats .f32)
    (hacc : (0x00000000#32 : BitVec 32) = FKind.add.neutral .f32 hφ) (s : Fin 2048) :
    multiReduction .add [1] S2048 v 0x00000000#32 h hφ hacc (ix1 s) = ∑ k : Fin 128, v (ix2 s k) :=
  (Ideal.multiReduction_add_single v _ h hφ hacc (ix1 s)).trans
    (Finset.sum_congr rfl fun k _ => congrArg v
      (funext fun a => Fin.ext (by match a with | ⟨0, _⟩ => rfl | ⟨1, _⟩ => rfl)))

/-- A sum over the rows of a [2048, 128] value, at lane d. -/
theorem rowSum_apply (v : FVec Ideal S2048x128 .f32) (h : S2048x128.Reduces [0] S128) (hφ : FKind.Formats .f32)
    (hacc : (0x00000000#32 : BitVec 32) = FKind.add.neutral .f32 hφ) (d : Fin 128) :
    multiReduction .add [0] S128 v 0x00000000#32 h hφ hacc (ix1 d) = ∑ s : Fin 2048, v (ix2 s d) :=
  (Ideal.multiReduction_add_single v _ h hφ hacc (ix1 d)).trans
    (Finset.sum_congr rfl fun s _ => congrArg v
      (funext fun a => Fin.ext (by match a with | ⟨0, _⟩ => rfl | ⟨1, _⟩ => rfl)))

/-- The stored block at lane d: the sum over the rows of the row's entry over its clamped norm. -/
theorem pay_apply (x0 : FVec Ideal S1x2048x128 .f32) (u v : Fin 1) (d : Fin 128) :
    k0_pay1 (F := Ideal) x0 (ix3 u v d)
      = ∑ s : Fin 2048, Ideal.div (x0 (ix3 (0 : Fin 1) s d))
          (max (Ideal.sqrt (∑ k : Fin 128, x0 (ix3 (0 : Fin 1) s k) * x0 (ix3 (0 : Fin 1) s k))) eps) := by
  unfold k0_pay1
  refine (shapeCast_ab_1ab_apply _ _ _ _ _).trans ?_
  refine (shapeCast_a_1a_apply _ _ _ _).trans ?_
  refine (rowSum_apply _ _ _ _ d).trans ?_
  refine Finset.sum_congr rfl fun s _ => ?_
  refine congrArg₂ Ideal.div (shapeCast_1ab_ab_apply _ _ s d) ?_
  refine (broadcastTo_a1_ab_apply _ _ s d).trans ?_
  refine congrArg (fun z => max (Ideal.sqrt z) eps) ?_
  refine (shapeCast_a_a1_apply _ _ s _).trans ?_
  refine (laneSum_apply _ _ _ _ s).trans ?_
  refine Finset.sum_congr rfl fun k _ => ?_
  exact congrArg₂ (· * ·) (shapeCast_1ab_ab_apply _ _ s k) (shapeCast_1ab_ab_apply _ _ s k)

end Cert.KernelIdeal.Body

end
-- ==== Proof.Tail.lean ====
/-
  The host operations after the region, as one function of the column-sum array, and its value.
  The array the region leaves holds, at (b, 0, d), batch b's column sum at lane d. The host squares it entry by
  entry, adds up all 32 · 1 · 128 squares from a zero initial value, and divides by the constant: the sum over
  every index of the array is the double sum over batches and lanes (the middle axis has one coordinate), which is
  the specification's `colTotal`.
-/
import proofs.«125708_j6055903887416_1_alg».proof.Proof.Gen.KernelIdeal
import proofs.«125708_j6055903887416_1_alg».proof.Proof.Spec
import proofs.«125708_j6055903887416_1_alg».proof.Proof.LibSumIdx3
import Idealize.ShloMosaic.PureOps.Ideal.Laws

noncomputable section

namespace Cert.KernelIdeal.Body

open Cert.KernelIdeal Cert.KernelIdeal.Gen Idealize.ShloMosaic Idealize.ShloMosaic.ValueIdx Cert.Ortho

/-- The column sums of every batch, laid out as the region's output array: batch b's sums in row (b, 0, ·). -/
def cols (X : S32x2048x128.Idx → EReal) : S32x1x128.Idx → EReal := fun i => colSum X (i 0) (i 2)

/-- The host operations after the region: square, add everything up from zero, divide by the constant. -/
def tail (A : FVec Ideal S32x1x128 .f32) : FVec Ideal S_ .f32 :=
  Host.divf (F := Ideal)
    (Host.reduceAdd (F := Ideal) (mulf A A) (constant (F := Ideal) S_ .f32 0x00000000#32) reducesTo_S32x1x128_S_d0_1_2 h_S_)
    (constant (F := Ideal) S_ .f32 0x4D000000#32)

/-- Its one entry: zero plus the sum of all squares, over the constant. -/
theorem tail_apply (A : FVec Ideal S32x1x128 .f32) (i : S_.Idx) :
    tail A i = Ideal.div (Ideal.ofBits .f32 0x00000000#32 + ∑ j : S32x1x128.Idx, A j * A j)
      (Ideal.ofBits .f32 0x4D000000#32) := by
  unfold tail
  refine congrArg (fun z => Ideal.div z (Ideal.ofBits .f32 0x4D000000#32)) ?_
  simp only [Host.reduceAdd, Ideal.hostReduceAdd_def]
  exact Ideal.hostReduceAdd_total reducesTo_S32x1x128_S_d0_1_2 (fun b => b.elim0) (mulf A A) _ i

/-- The squares of the column-sum array add up to the specification's total. -/
theorem cols_total (X : S32x2048x128.Idx → EReal) : ∑ j : S32x1x128.Idx, cols X j * cols X j = colTotal X := by
  rw [sum_idx3]
  unfold colTotal
  refine Finset.sum_congr rfl fun b _ => ?_
  rw [Fin.sum_univ_one]
  rfl

/-- So the tail of the column-sum array is the specification's result. -/
theorem tail_cols (X : S32x2048x128.Idx → EReal) :
    tail (cols X) = fun _ => Ideal.div (Ideal.ofBits .f32 0x00000000#32 + colTotal X) (Ideal.ofBits .f32 0x4D000000#32) := by
  funext i
  rw [tail_apply, cols_total]

end Cert.KernelIdeal.Body

end
-- ==== Proof.Blocks.lean ====
/-
  From what each grid point writes back to the whole output array.
  Grid point t (one per batch) fetches block t of the input along the batch axis — rows (t, ·, ·) — and writes back
  block t of the output — row (t, 0, ·). What it writes is the body's stored value of the fetched block, which is the
  column sums of batch t: block t of the array `cols X`, X the input array. The 32 output blocks tile the
  [32, 1, 128] output (index (b, 0, d) lies in block b), so after the last point the output array IS `cols X`.
-/
import proofs.«125708_j6055903887416_1_alg».proof.Proof.Gen.KernelIdeal.Frame
import proofs.«125708_j6055903887416_1_alg».proof.Proof.Payload
import proofs.«125708_j6055903887416_1_alg».proof.Proof.Tail
import Idealize.ShloMosaic.Lib.Pipeline.Value

noncomputable section

namespace Cert.KernelIdeal.Body

open Cert.KernelIdeal Cert.KernelIdeal.Gen Idealize.ShloMosaic Idealize.ShloMosaic.TcCoe Idealize.SL.Sem
open Idealize.ShloMosaic.ValueIdx Cert.Ortho
open Idealize.ShloMosaic.Pipeline (Dat)

variable (m : (ℓ : Loc nD τ sig) → Buf (Elt Ideal) ℓ)

theorem origin3 : (![0, 0, 0] : Fin 3 → Nat) = fun _ => 0 := funext fun a => by fin_cases a <;> rfl

/-- The printed index maps, decided over the 32 grid points: both windows move along the batch axis with the point
    and stay at block 0 on the other two axes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The body's stored value of a block that holds batch b of X, at an index of the output block, is `cols X` at the
    index of the output array with the same lane in row b. -/
theorem block_eq (x0 : FVec Ideal S1x2048x128 .f32) (X : S32x2048x128.Idx → EReal) (b : Fin 32)
    (hx : ∀ (s : Fin 2048) (k : Fin 128), x0 (ix3 (0 : Fin 1) s k) = X (ix3 b s k))
    (y : S1x1x128.Idx) (i : S32x1x128.Idx) (hi0 : (i 0).val = b.val) (hi2 : (i 2).val = (y 2).val) :
    k0_pay1 (F := Ideal) x0 y = cols X i := by
  have hy0 : (y 0).val < 1 := (y 0).isLt
  have hy1 : (y 1).val < 1 := (y 1).isLt
  have hy2 : (y 2).val < 128 := (y 2).isLt
  have hi1 : (i 1).val < 1 := (i 1).isLt
  obtain ⟨d, hd⟩ : ∃ d : Fin 128, d.val = (y 2).val := ⟨⟨_, hy2⟩, rfl⟩
  have ey : y = ix3 (0 : Fin 1) (0 : Fin 1) d :=
    funext fun a => Fin.ext (by
      match a with
      | ⟨0, _⟩ => show (y 0).val = 0; omega
      | ⟨1, _⟩ => show (y 1).val = 0; omega
      | ⟨2, _⟩ => exact hd.symm)
  have ei : i = ix3 b (0 : Fin 1) d :=
    funext fun a => Fin.ext (by
      match a with
      | ⟨0, _⟩ => exact hi0
      | ⟨1, _⟩ => show (i 1).val = 0; omega
      | ⟨2, _⟩ => exact hi2.trans hd.symm)
  rw [ey, ei, pay_apply]
  show _ = colSum X b d
  unfold colSum unitRow rowNorm
  simp only [hx]

/-- What point t writes back is block t of the column-sum array of the input as the region finds it. -/
theorem flushed_eq (c : Dev nD) (t : Fin cfg0.N) :
    (dats m 0 c).flushed 1 t = ((cfg0.win 1).blk t).view.read (Elt Ideal) (cols (V m c main_arg0)) := by
  show (cfg0.win 1).cut (grid0.coords t) ((dats m 0 c).after 1 t) = _
  rw [after0_1]
  unfold out0_1
  rw [View.canon_unit_zero origin3]
  simp only [View.ld_unit_zero (S := S1x2048x128) origin3]
  obtain ⟨e0, e1, e2, e3, e4, e5⟩ := idx_facts t
  have hN : grid0.N = 32 := N_0
  have hb : t.val < 32 := lt_of_lt_of_eq t.isLt N_0
  funext j
  show k0_pay1 (F := Ideal) (iblk m c 0 t) j = cols (V m c main_arg0) (((cfg0.win 1).blk t).view.emb j)
  have hj0 : (j 0).val < 1 := (j 0).isLt
  refine block_eq (iblk m c 0 t) (V m c main_arg0) ⟨t.val, hb⟩ (fun s k => ?_) j _ ?_ ?_
  · show V m c main_arg0 (((cfg0.win 0).blk t).view.emb (ix3 (0 : Fin 1) s k)) = V m c main_arg0 (ix3 ⟨t.val, hb⟩ s k)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 2048 + 1 * s.val = s.val; omega
    | ⟨2, _⟩ => show win0_0.index t (2 : Fin 3) * 128 + 1 * k.val = k.val; omega
  · show win0_1.index t (0 : Fin 3) * 1 + 1 * (j 0).val = t.val; omega
  · show win0_1.index t (2 : Fin 3) * 128 + 1 * (j 2).val = (j 2).val; omega

/-- An index of the output array is in point t's block iff each coordinate is in the block's range on its axis. -/
theorem mem_blk (t : Fin cfg0.N) (i : S32x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v0).slice (win0_1.rect t)).set ↔ _
  rw [View.set_slice_whole, Rect.mem_set_unit]
  exact Iff.rfl

/-- Every index of the output array is in the block of the point numbered by its batch coordinate. -/
theorem cover (i : S32x1x128.Idx) :
    ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 128 := (i 2).isLt
  have hN : grid0.N = 32 := N_0
  obtain ⟨t, ht⟩ : ∃ t : Fin cfg0.N, t.val = (i 0).val := ⟨⟨(i 0).val, by show (i 0).val < grid0.N; omega⟩, rfl⟩
  refine ⟨t, flush0_1 t, ?_⟩
  rw [mem_blk]
  obtain ⟨e0, e1, e2, e3, e4, e5⟩ := idx_facts t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1 ≤ (i 1).val ∧ (i 1).val < win0_1.index t (1 : Fin 3) * 1 + 1
    omega
  | ⟨2, _⟩ =>
    show win0_1.index t (2 : Fin 3) * 128 ≤ (i 2).val ∧ (i 2).val < win0_1.index t (2 : Fin 3) * 128 + 128
    omega

/-- The output array after the last point is the column-sum array of the input as launched. -/
theorem final (c : Dev nD) :
    (dats m 0 c).arrAt 1 cfg0.N = cols (m ((c : Thread nD τ).loc main_arg0)) :=
  ((dats m 0 c).arrAt_eq_of_cover 1 (cols (V m c main_arg0)) (fun t _ => flushed_eq m c t) cover).trans
    (by rw [V_main_arg0])

end Cert.KernelIdeal.Body

end
-- ==== Proof.KernelRun.lean ====
/-
  The idealized kernel's run, read: its result and its argument.
  The generated frame run ends with the region's output array at what the grid points wrote (the column-sum array,
  by the blocks-to-array step) and every other buffer at what the host operations after the region leave there. The
  result buffer is such a buffer: it holds those operations' function of the output array, which is the
  specification's result.
-/
import proofs.«125708_j6055903887416_1_alg».proof.Proof.Gen.KernelIdeal.Frame
import proofs.«125708_j6055903887416_1_alg».proof.Proof.Blocks
import proofs.«125708_j6055903887416_1_alg».proof.Proof.Tail
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.StableHlo Cert.Ortho
open Idealize.ShloMosaic.Pipeline (Dat)

variable (m : (ℓ : Loc nD τ sig) → Buf (Elt Ideal) ℓ) (ρ : Dev nD → PrngReg)

/-- The result buffer is unscoped and is no window's array. -/
theorem result_rest : main_v3 ∈ Pipeline.restRefs sig (cfgs 0).spec :=
  Pipeline.mem_restRefs_of main_v3 rfl (by decide)

/-- After the host operations that follow the region, the result buffer holds their function of the column sums. -/
theorem tail_value (c : Dev nD) :
    Pipeline.afterTail₀ cfgs (dats m) 0 (V0 m) [hostOps1] c main_v3
      = tail (cols (m ((c : Thread nD τ).loc main_arg0))) := by
  unfold Pipeline.afterTail₀
  show StableHlo.after hostOps1 _ (Proc.devRef .tc main_v3) = _
  after_results
  exact congrArg tail ((Pipeline.withArrays_arr spec0 launch0.win.arr_inj c _ _ 1).trans (final m c))

/-- The run: every weakly fair execution ends with the result at the specification's value — zero plus the squared
    column sums of the launched input, over the constant — and the input unchanged. -/
theorem run : θ_run defs (onTc (τ := τ) (main (F := Ideal))) ⟨m, fun _ => 0, ρ⟩ fun r => ∀ c : Dev nD,
      r.2.mem ((c.tc : Thread nD τ).loc main_v3)
        = (fun _ => Ideal.div (Ideal.ofBits .f32 0x00000000#32 + colTotal (m ((c.tc : Thread nD τ).loc main_arg0)))
            (Ideal.ofBits .f32 0x4D000000#32))
      ∧ r.2.mem ((c.tc : Thread nD τ).loc main_arg0) = m ((c.tc : Thread nD τ).loc main_arg0) :=
  (θ_run defs _ _).mono (fun r h c =>
      ⟨(((h c).2 main_v3 result_rest).trans (tail_value m c)).trans (tail_cols _),
        ((h c).1 0).trans (((dats m 0 c).arrAt_in 0 rfl _).trans ((A_eq m c 0).trans (V_main_arg0 m c)))⟩)
    (run_main m ρ)

end Cert.KernelIdeal.Body

end
-- ==== Proof.lean ====
/-
  The five claims for a kernel computing the mean of all pairwise cosine similarities within each batch.

  For x over [32, 2048, 128] let u[b,s,·] be row (b, s) divided by max(‖x[b,s,·]‖, eps). The reference forms, per
  batch, the 2048 × 2048 matrix of inner products u[b,s,·] · u[b,t,·] and averages all entries: it adds them up and
  divides by 32 · 2048 · 2048. The kernel never forms that matrix: one grid point per batch adds the 2048 unit rows
  into a 128-vector c[b,·], and the host then adds up the squares c[b,d]^2 and divides by the same constant.

  The two agree because  sum_{s,t} sum_d u[s,d] u[t,d] = sum_d (sum_s u[s,d])^2  in each batch: distributivity of a
  product over two finite sums, and an exchange of summation order. Distributivity fails at the infinities of the
  extended reals, so the precondition is used: every input entry is a real number, hence every row's sum of squares
  is a nonnegative real, its square root is real, the clamp by eps > 0 makes the divisor a positive real, and every
  u[b,s,d] is real. The law is then an identity of real numbers.

  The three frames: each program terminates without fault and leaves its argument unchanged (for the reference, its
  run with the result forgotten). The idealization rewrote no operation, so that claim is trivial.
-/
import proofs.«125708_j6055903887416_1_alg».proof.Defs
import proofs.«125708_j6055903887416_1_alg».proof.Proof.Gen.Kernel
import proofs.«125708_j6055903887416_1_alg».proof.Proof.Gen.Kernel.Skeleton
import proofs.«125708_j6055903887416_1_alg».proof.Proof.Gen.Kernel.Launch
import proofs.«125708_j6055903887416_1_alg».proof.Proof.Gen.Kernel.Points
import proofs.«125708_j6055903887416_1_alg».proof.Proof.Gen.Kernel.Frame
import proofs.«125708_j6055903887416_1_alg».proof.Proof.Gen.KernelIdeal
import proofs.«125708_j6055903887416_1_alg».proof.Proof.Gen.KernelIdeal.Skeleton
import proofs.«125708_j6055903887416_1_alg».proof.Proof.Gen.KernelIdeal.Launch
import proofs.«125708_j6055903887416_1_alg».proof.Proof.Gen.KernelIdeal.Points
import proofs.«125708_j6055903887416_1_alg».proof.Proof.Gen.KernelIdeal.Frame
import proofs.«125708_j6055903887416_1_alg».proof.Proof.Gen.ReferenceIdeal
import proofs.«125708_j6055903887416_1_alg».proof.Proof.Gen.Pre_finite_inputs
import proofs.«125708_j6055903887416_1_alg».proof.Proof.Gen.ReferenceIdeal.Run
import proofs.«125708_j6055903887416_1_alg».proof.Proof.Gen.ReferenceIdeal.Read
import proofs.«125708_j6055903887416_1_alg».proof.Proof.Finite
import proofs.«125708_j6055903887416_1_alg».proof.Proof.RefValue
import proofs.«125708_j6055903887416_1_alg».proof.Proof.KernelRun
import Idealize.ShloMosaic.Adequacy
import Idealize.ShloMosaic.Init

noncomputable section

namespace Cert.Proof

open Idealize.ShloMosaic Idealize.SL.Sem Cert.Kernel

/-- The printed kernel terminates without fault and keeps its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at one extended real: the kernel at zero plus the squared column sums over the
    constant, the reference at zero plus all pairwise inner products of unit rows over the same constant, and the
    two totals are equal on real inputs. -/
theorem algebraic : Cert.algebraic_KernelIdeal_ReferenceIdeal := by
  intro m ρ m' ρ' hpre hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c,
    Cert.Ortho.total_eq _ (fun i => Cert.Ortho.real_of_finite _ (hpre c) i)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
